-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512x2 : Shape := ⟨3, ![50000, 512, 2]⟩
abbrev S50000x2x2 : Shape := ⟨3, ![50000, 2, 2]⟩
abbrev S50000x2 : Shape := ⟨2, ![50000, 2]⟩
abbrev S_ : Shape := ⟨0, ![]⟩

class Facts : Prop where
  bcast_S_S50000x512x2 : S_.BroadcastsInDim S50000x512x2 (![] : Fin 0 → Fin S50000x512x2.rank)
  reducesTo_S50000x512x2_S_d0_1_2 : S50000x512x2.ReducesTo [0, 1, 2] S_
  h_S_ : 0 < S_.numel
  bcast_S_S50000x2x2 : S_.BroadcastsInDim S50000x2x2 (![] : Fin 0 → Fin S50000x2x2.rank)
  reducesTo_S50000x2x2_S_d0_1_2 : S50000x2x2.ReducesTo [0, 1, 2] S_
  bcast_S_S50000x2 : S_.BroadcastsInDim S50000x2 (![] : Fin 0 → Fin S50000x2.rank)
  reducesTo_S50000x2_S_d0_1 : S50000x2.ReducesTo [0, 1] S_

variable [Facts]

def fn {F : FTy → Type} [FloatOps F] (main_arg0 : FVec F S50000x512x2 .f32) (main_arg1 : FVec F S50000x2x2 .f32) (main_arg2 : FVec F S50000x2 .f32) : IVec S_ 1 :=
  let main_v0 : FVec F S50000x512x2 .f32 := Host.absf main_arg0
  let main_cst : FVec F S_ .f32 := constant S_ .f32 0x7F800000#32
  let main_v1 : FVec F S50000x512x2 .f32 := broadcastInDim S50000x512x2 ![] bcast_S_S50000x512x2 main_cst
  let main_v2 : IVec S50000x512x2 1 := cmpf .olt main_v0 main_v1
  let main_c : IVec S_ 1 := constantI S_ 1 1#1
  let main_v3 : IVec S_ 1 := (fun x v => Host.reduce IntOp.andi x v reducesTo_S50000x512x2_S_d0_1_2 h_S_) main_v2 main_c
  let main_v4 : FVec F S50000x2x2 .f32 := Host.absf main_arg1
  let main_cst_0 : FVec F S_ .f32 := constant S_ .f32 0x7F800000#32
  let main_v5 : FVec F S50000x2x2 .f32 := broadcastInDim S50000x2x2 ![] bcast_S_S50000x2x2 main_cst_0
  let main_v6 : IVec S50000x2x2 1 := cmpf .olt main_v4 main_v5
  let main_c_1 : IVec S_ 1 := constantI S_ 1 1#1
  let main_v7 : IVec S_ 1 := (fun x v => Host.reduce IntOp.andi x v reducesTo_S50000x2x2_S_d0_1_2 h_S_) main_v6 main_c_1
  let main_v8 : IVec S_ 1 := andi main_v3 main_v7
  let main_v9 : FVec F S50000x2 .f32 := Host.absf main_arg2
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  main_v13
-- ==== Kernel.lean ====
abbrev S50000x512x2 : Shape := ⟨3, ![50000, 512, 2]⟩
abbrev S50000x2x2 : Shape := ⟨3, ![50000, 2, 2]⟩
abbrev S50000x2 : Shape := ⟨2, ![50000, 2]⟩
abbrev S50000x1024 : Shape := ⟨2, ![50000, 1024]⟩
abbrev S50000x4 : Shape := ⟨2, ![50000, 4]⟩
abbrev S50000x6 : Shape := ⟨2, ![50000, 6]⟩
abbrev S1024 : Shape := ⟨1, ![1024]⟩
abbrev S1x1024 : Shape := ⟨2, ![1, 1024]⟩
abbrev S_ : Shape := ⟨0, ![]⟩
abbrev S1000x1024 : Shape := ⟨2, ![1000, 1024]⟩
abbrev S1000x6 : Shape := ⟨2, ![1000, 6]⟩
abbrev S1000x1 : Shape := ⟨2, ![1000, 1]⟩

abbrev nBuf : Space → Nat
  | .hbm => 36
  | .vmem => 7
  | .smem => 0
  | _ => 0

abbrev bufTy : (tb : Table) → Fin (tcTables nBuf tb) → BufTy
  | .hbm, ⟨0, _⟩ => ⟨S50000x512x2, .f32⟩
  | .hbm, ⟨1, _⟩ => ⟨S50000x2x2, .f32⟩
  | .hbm, ⟨2, _⟩ => ⟨S50000x2, .f32⟩
  | .hbm, ⟨3, _⟩ => ⟨S50000x1024, .f32⟩
  | .hbm, ⟨4, _⟩ => ⟨S50000x4, .f32⟩
  | .hbm, ⟨5, _⟩ => ⟨S50000x6, .f32⟩
  | .hbm, ⟨6, _⟩ => ⟨S1024, .i32⟩
  | .hbm, ⟨7, _⟩ => ⟨S1x1024, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S1x1024, .i32⟩
  | .hbm, ⟨15, _⟩ => ⟨S1x1024, .i32⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S_, .i32⟩
  | .hbm, ⟨20, _⟩ => ⟨S1x1024, .i32⟩
  | .hbm, ⟨21, _⟩ => ⟨S1x1024, .i1⟩
  | .hbm, ⟨22, _⟩ => ⟨S_, .i32⟩
  | .hbm, ⟨23, _⟩ => ⟨S_, .i1⟩
  | .hbm, ⟨24, _⟩ => ⟨S1x1024, .i1⟩
  | .hbm, ⟨25, _⟩ => ⟨S1x1024, .i1⟩
  | .hbm, ⟨26, _⟩ => ⟨S1x1024, .i1⟩
  | .hbm, ⟨27, _⟩ => ⟨S1x1024, .i32⟩
  | .hbm, ⟨28, _⟩ => ⟨S1x1024, .i32⟩
  | .hbm, ⟨29, _⟩ => ⟨S1x1024, .i32⟩
  | .hbm, ⟨30, _⟩ => ⟨S_, .i32⟩
  | .hbm, ⟨31, _⟩ => ⟨S1x1024, .i32⟩
  | .hbm, ⟨32, _⟩ => ⟨S1x1024, .i1⟩
  | .hbm, ⟨33, _⟩ => ⟨S1x1024, .i32⟩
  | .hbm, ⟨34, _⟩ => ⟨S50000x1024, .f32⟩
  | .hbm, ⟨35, _⟩ => ⟨S50000x512x2, .f32⟩
  | .local _ .vmem, ⟨0, _⟩ => ⟨S1000x1024, .f32⟩
  | .local _ .vmem, ⟨1, _⟩ => ⟨S1000x1024, .f32⟩
  | .local _ .vmem, ⟨2, _⟩ => ⟨S1000x6, .f32⟩
  | .local _ .vmem, ⟨3, _⟩ => ⟨S1000x6, .f32⟩
  | .local _ .vmem, ⟨4, _⟩ => ⟨S1x1024, .i32⟩
  | .local _ .vmem, ⟨5, _⟩ => ⟨S1000x1024, .f32⟩
  | .local _ .vmem, ⟨6, _⟩ => ⟨S1000x1024, .f32⟩
  | _, _ => ⟨S50000x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S50000x512x2_S50000x1024 : S50000x512x2.ShapeCasts S50000x1024
  shapeCasts_S50000x2x2_S50000x4 : S50000x2x2.ShapeCasts S50000x4
  concatenates_S50000x4_S50000x2_S50000x6_d1 : Shape.Concatenates [S50000x4, S50000x2] S50000x6 1
  shapeCasts_S1024_S1x1024 : S1024.ShapeCasts S1x1024
  bcast_S_S1x1024 : S_.BroadcastsInDim S1x1024 (![] : Fin 0 → Fin S1x1024.rank)
  natLt_1_32 : 1 < 32
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1000x6_S1000x6_0_0 : ∀ a, (![0, 0] : Fin 2 → Nat) a + S1000x6.size a ≤ S1000x6.size a
  h_S1000x6 : 0 < S1000x6.numel
  shapeCasts_S1000x6_S1000x6 : S1000x6.ShapeCasts S1000x6
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  rotates_S1000x1024_d1 : S1000x1024.Rotates 1 none
  slices_S1000x6_o0_0_S1000x1 : S1000x6.Slices ![0, 0] S1000x1
  slices_S1000x6_o0_1_S1000x1 : S1000x6.Slices ![0, 1] S1000x1
  slices_S1000x6_o0_2_S1000x1 : S1000x6.Slices ![0, 2] S1000x1
  slices_S1000x6_o0_3_S1000x1 : S1000x6.Slices ![0, 3] S1000x1
  slices_S1000x6_o0_4_S1000x1 : S1000x6.Slices ![0, 4] S1000x1
  slices_S1000x6_o0_5_S1000x1 : S1000x6.Slices ![0, 5] S1000x1
  shapeCasts_S1000x1_S1000x1 : S1000x1.ShapeCasts S1000x1
  broadcasts_S1000x1_S1000x1024 : S1000x1.Broadcasts S1000x1024
  shapeCasts_S50000x1024_S50000x512x2 : S50000x1024.ShapeCasts S50000x512x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x6.size a ≤ S50000x6.size a
  hwx0_1 : ∀ i : grid0.Coords, EltTy.bits .f32 = 32 ∨ (Rect.block (s := S50000x6) S1000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .i32 = 32 ∨ (Rect.block (s := S1x1024) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S50000x1024.size a
  hwx0_3 : ∀ i : grid0.Coords, EltTy.bits .f32 = 32 ∨ (Rect.block (s := S50000x1024) S1000x1024.size (cc0_transform_3 i) (hinb0_3 i)).WholeWords (EltTy.packing .f32)

variable [Facts₀]

abbrev win0_0 : Pipeline.Window sig grid0 :=
  Pipeline.Window.ofSpec (Memref.whole main_v0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x512x2 : Shape := ⟨3, ![50000, 512, 2]⟩
abbrev S50000x2x2 : Shape := ⟨3, ![50000, 2, 2]⟩
abbrev S50000x2 : Shape := ⟨2, ![50000, 2]⟩
abbrev S50000x1x2 : Shape := ⟨3, ![50000, 1, 2]⟩

abbrev nBuf : Space → Nat
  | .hbm => 7
  | .vmem => 0
  | .smem => 0
  | _ => 0

abbrev bufTy : (tb : Table) → Fin (tcTables nBuf tb) → BufTy
  | .hbm, ⟨0, _⟩ => ⟨S50000x512x2, .f32⟩
  | .hbm, ⟨1, _⟩ => ⟨S50000x2x2, .f32⟩
  | .hbm, ⟨2, _⟩ => ⟨S50000x2, .f32⟩
  | .hbm, ⟨3, _⟩ => ⟨S50000x512x2, .f32⟩
  | .hbm, ⟨4, _⟩ => ⟨S50000x1x2, .f32⟩
  | .hbm, ⟨5, _⟩ => ⟨S50000x512x2, .f32⟩
  | .hbm, ⟨6, _⟩ => ⟨S50000x512x2, .f32⟩
  | _, _ => ⟨S50000x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S50000x2_S50000x1x2_0_2 : S50000x2.BroadcastsInDim S50000x1x2 (![0, 2] : Fin 2 → Fin S50000x1x2.rank)
  bcast_S50000x1x2_S50000x512x2_0_1_2 : S50000x1x2.BroadcastsInDim S50000x512x2 (![0, 1, 2] : Fin 3 → Fin S50000x512x2.rank)
  dot_S50000x512x2_S50000x2x2_S50000x512x2_2_2_1_1_0_0_wf : DotDims.WF S50000x512x2 S50000x2x2 S50000x512x2 [2] [2] [1] [1] [0] [0]

variable [Facts₀]

def dot_S50000x512x2_S50000x2x2_S50000x512x2_2_2_1_1_0_0 : DotDims S50000x512x2 S50000x2x2 S50000x512x2 where
  lhsContracting := [2]
  rhsContracting := [2]
  lhsNonContracting := [1]
  rhsNonContracting := [1]
  lhsBatch := [0]
  rhsBatch := [0]
  wf := dot_S50000x512x2_S50000x2x2_S50000x512x2_2_2_1_1_0_0_wf

class Facts : Prop extends Facts₀ where

variable [Facts]
-- ==== Proof.EdgeLinear.lean ====
/-
  The per-edge affine map, as one function of the three argument arrays.

  For every edge `e`, batch row `p` and output unit `o`,
    `out[e, p, o] = (∑ k, x[e, p, k] · W[e, o, k]) + b[e, o]`,
  a 2 × 2 linear map applied to each row of edge `e`'s batch, plus the edge's bias. Both programs
  compute this array over the extended reals; this module states it (`edgeLinear`), states the same
  array with the two trailing axes merged into 1024 lanes (`laneForm`: lane `j` holds batch row
  `j / 2`, output unit `j % 2`), and writes the sum over the two input units out for each output unit.
  For output unit 1 the two products appear with the unit's own input first: only commutativity of
  addition on the extended reals is used, so nothing here needs the entries to be finite.
-/
import Idealize.ShloMosaic.PureOps.Ideal
import Idealize.ShloMosaic.Lib.ValueIdx

noncomputable section

namespace Cert.EdgeLinear

open Idealize.ShloMosaic Idealize.ShloMosaic.ValueIdx

/-- The input and result arrays' shape: edges × batch rows × units. -/
abbrev SX : Shape := ⟨3, ![50000, 512, 2]⟩
/-- The weights' shape: edges × output units × input units. -/
abbrev SW : Shape := ⟨3, ![50000, 2, 2]⟩
/-- The biases' shape: edges × output units. -/
abbrev SB : Shape := ⟨2, ![50000, 2]⟩
/-- The result with its two trailing axes merged: edges × lanes. -/
abbrev SL : Shape := ⟨2, ![50000, 1024]⟩

/-- `out[e, p, o] = (∑ k, x[e, p, k] · W[e, o, k]) + b[e, o]`. -/
def edgeLinear (x : FVec Ideal SX .f32) (W : FVec Ideal SW .f32) (b : FVec Ideal SB .f32) : FVec Ideal SX .f32 :=
  fun i => (∑ k : Fin 2, x (ix3 (i 0) (i 1) k) * W (ix3 (i 0) (i 2) k)) + b (ix2 (i 0) (i 2))

/-- The batch row a lane belongs to. -/
def laneRow (j : Fin 1024) : Fin 512 := ⟨j.val / 2, by have := j.isLt; omega⟩
/-- The output unit a lane belongs to. -/
def laneUnit (j : Fin 1024) : Fin 2 := ⟨j.val % 2, by omega⟩

/-- The same array, lane by lane: lane `j` of edge `e` is `out[e, j / 2, j % 2]`. -/
def laneForm (x : FVec Ideal SX .f32) (W : FVec Ideal SW .f32) (b : FVec Ideal SB .f32) : FVec Ideal SL .f32 :=
  fun j => edgeLinear x W b (ix3 (j 0) (laneRow (j 1)) (laneUnit (j 1)))

/-- Output unit 0: the row's two entries against the first row of the edge's matrix. -/
theorem edgeLinear_unit0 (x : FVec Ideal SX .f32) (W : FVec Ideal SW .f32) (b : FVec Ideal SB .f32)
    (e : Fin 50000) (p : Fin 512) :
    edgeLinear x W b (ix3 e p (0 : Fin 2))
      = x (ix3 e p (0 : Fin 2)) * W (ix3 e (0 : Fin 2) (0 : Fin 2)) + x (ix3 e p (1 : Fin 2)) * W (ix3 e (0 : Fin 2) (1 : Fin 2))
        + b (ix2 e (0 : Fin 2)) := by
  unfold edgeLinear
  rw [Fin.sum_univ_two]

/-- Output unit 1, with the unit's own input first: the two products commute under the sum. -/
theorem edgeLinear_unit1 (x : FVec Ideal SX .f32) (W : FVec Ideal SW .f32) (b : FVec Ideal SB .f32)
    (e : Fin 50000) (p : Fin 512) :
    edgeLinear x W b (ix3 e p (1 : Fin 2))
      = x (ix3 e p (1 : Fin 2)) * W (ix3 e (1 : Fin 2) (1 : Fin 2)) + x (ix3 e p (0 : Fin 2)) * W (ix3 e (1 : Fin 2) (0 : Fin 2))
        + b (ix2 e (1 : Fin 2)) := by
  unfold edgeLinear
  rw [Fin.sum_univ_two, add_comm (x (ix3 e p (1 : Fin 2)) * W (ix3 e (1 : Fin 2) (1 : Fin 2)))]

end Cert.EdgeLinear

end
-- ==== Proof.ReferenceValue.lean ====
/-
  The reference computes the per-edge affine map.

  Its four host operations are a batched contraction of `x` with `W` over the input unit (batch axis the
  edge), the bias broadcast over the batch rows, and their sum. Read at an index `(e, p, o)` through the
  generated read-at-an-index lemmas, the contraction is `∑ k, x[e, p, k] · W[e, o, k]` and the broadcast
  bias is `b[e, o]`: the sum is `edgeLinear` as it is defined.
-/
import proofs.«180710_j77627238908438_2_alg».proof.Proof.Gen.ReferenceIdeal.Read
import proofs.«180710_j77627238908438_2_alg».proof.Proof.EdgeLinear

noncomputable section

namespace Cert.ReferenceIdeal.RefValue

open Cert.ReferenceIdeal Cert.ReferenceIdeal.Read Idealize.ShloMosaic Idealize.ShloMosaic.ValueIdx Cert.EdgeLinear

/-- The contraction's left operand is read at `(e, p, k)`. -/
theorem lidx_eq (i : S50000x512x2.Idx) (k : Fin 2) : lidx_main_v0 i k = ix3 (i 0) (i 1) k :=
  funext fun a => Fin.ext (by match a with | ⟨0, _⟩ => rfl | ⟨1, _⟩ => rfl | ⟨2, _⟩ => rfl)

/-- Its right operand is read at `(e, o, k)`. -/
theorem ridx_eq (i : S50000x512x2.Idx) (k : Fin 2) : ridx_main_v0 i k = ix3 (i 0) (i 2) k :=
  funext fun a => Fin.ext (by match a with | ⟨0, _⟩ => rfl | ⟨1, _⟩ => rfl | ⟨2, _⟩ => rfl)

/-- The bias, broadcast twice, is read at `(e, o)`. -/
theorem bidx_eq (i : S50000x512x2.Idx) : idx_main_v1 (idx_main_v2 i) = ix2 (i 0) (i 2) :=
  funext fun a => Fin.ext (by match a with | ⟨0, _⟩ => rfl | ⟨1, _⟩ => rfl)

/-- The reference's result, as a function of its three arguments, is the per-edge affine map. -/
theorem reference_eq (x : FVec Ideal SX .f32) (W : FVec Ideal SW .f32) (b : FVec Ideal SB .f32) :
    val_main_v3 (F := Ideal) x W b = edgeLinear x W b := by
  funext i
  rw [val_main_v3_apply, val_main_v0_apply, val_main_v2_apply, val_main_v1_apply, bidx_eq]
  simp only [lidx_eq, ridx_eq]
  rfl

end Cert.ReferenceIdeal.RefValue

end
-- ==== Proof.LaneParity.lean ====
/-
  The parity of a lane number, computed on 32-bit words.

  The mask word of lane `j` is obtained from the word `j` by the floored remainder by 2 (the truncated remainder
  `j srem d`, to which the divisor `d` is added when the remainder is not zero and its sign differs from the divisor's;
  `d` itself is 2 guarded against zero), compared with zero and widened from one bit to 32. For the 1024 lane numbers no
  corner of the signed remainder is met (the divisor is 2), nothing wraps, and the word is 1 on the even lanes and 0 on
  the odd ones: a finite table, checked lane by lane.
-/
import Idealize.ShloMosaic.PureOps.Ideal

namespace Cert.LaneParity

open Idealize.ShloMosaic

/-- The mask word as a function of the lane number's word. -/
def parityWord (n : BitVec 32) : BitVec 32 :=
  let d : BitVec 32 := Scalar.select (IntOp.cmpi .eq 2#32 0#32) 1#32 2#32
  let r : BitVec 32 := IntOp.remsi .host n d
  let adjust : BitVec 1 := IntOp.andi (IntOp.cmpi .ne (IntOp.cmpi .slt r 0#32) (IntOp.cmpi .slt d 0#32)) (IntOp.cmpi .ne r 0#32)
  (IntOp.cmpi .eq (Scalar.select adjust (IntOp.addi r d) r) 0#32).setWidth 32

/-- On the 1024 lanes: 1 on an even lane, 0 on an odd one. -/
theorem parityWord_lane : ∀ j : Fin 1024, parityWord (BitVec.ofNat 32 j.val) = if j.val % 2 = 0 then 1#32 else 0#32 := by
  decide +kernel

theorem parityWord_even (j : Fin 1024) (h : j.val % 2 = 0) : parityWord (BitVec.ofNat 32 j.val) = 1#32 := by
  rw [parityWord_lane j, if_pos h]

theorem parityWord_odd (j : Fin 1024) (h : j.val % 2 = 1) : parityWord (BitVec.ofNat 32 j.val) = 0#32 := by
  rw [parityWord_lane j, if_neg (by omega)]

end Cert.LaneParity
-- ==== Proof.EntryArrays.lean ====
/-
  The three arrays the kernel's region finds on entry, as functions of the arguments.

  Before the region the host program lays the arguments out for the kernel: `x` with its two trailing axes merged into
  1024 lanes (lane `j` of edge `e` is `x[e, j / 2, j % 2]`); the edge's 2 × 2 matrix flattened row by row and followed
  by its two biases, six columns per edge (column `2·o + n` is `W[e, o, n]`, column `4 + o` is `b[e, o]`); and one row of
  1024 mask words, word `j` computed from the lane number `j` alone, which is 1 on the even lanes and 0 on the odd ones
  (`LaneParity`).
-/
import proofs.«180710_j77627238908438_2_alg».proof.Proof.Gen.KernelIdeal.Frame
import proofs.«180710_j77627238908438_2_alg».proof.Proof.EdgeLinear
import proofs.«180710_j77627238908438_2_alg».proof.Proof.LaneParity
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem Idealize.ShloMosaic.StableHlo
open Idealize.ShloMosaic.ValueIdx Cert.EdgeLinear Cert.LaneParity

variable {F : FTy → Type} [FloatOps F]
variable (m : (ℓ : Loc nD τ sig) → Buf (Elt F) ℓ)

/-! ## The lanes of `x` -/

/-- The region finds `x` reshaped to edges × lanes. -/
theorem entry_x (c : Dev nD) :
    (V m c main_v0 : S50000x1024.Idx → Elt F .f32)
      = shapeCast S50000x1024 (m ((c : Thread nD τ).loc main_arg0)) shapeCasts_S50000x512x2_S50000x1024 := by
  dsimp only [Gen.V, Gen.V0]
  simp only [Gen.hostOps0, Gen.hostOps0_1, Gen.hostOps0_2, List.flatten_cons, List.flatten_nil, List.append_nil, List.cons_append, List.nil_append]
  after_results_simp
  rfl

/-- Lane `j` of edge `e` is `x[e, j / 2, j % 2]`: the two positions are the same in row-major order. -/
theorem entry_x_apply (c : Dev nD) (e : Fin 50000) (j : Fin 1024) :
    (V m c main_v0 : S50000x1024.Idx → Elt F .f32) (ix2 e j)
      = (m ((c : Thread nD τ).loc main_arg0) : S50000x512x2.Idx → Elt F .f32) (ix3 e (laneRow j) (laneUnit j)) := by
  rw [entry_x]
  refine shapeCast_apply _ _ (ix2 e j) (ix3 e (laneRow j) (laneUnit j)) ?_
  rw [Shape.rowMajor_val_three, Shape.rowMajor_val_two]
  show (e.val * 512 + j.val / 2) * 2 + j.val % 2 = e.val * 1024 + j.val
  omega

/-! ## The six columns of weights and biases -/

/-- The region finds the flattened matrices and the biases side by side. -/
theorem entry_wb (c : Dev nD) :
    (V m c main_v2 : S50000x6.Idx → Elt F .f32)
      = concatenate S50000x6 1 [⟨S50000x4, shapeCast S50000x4 (m ((c : Thread nD τ).loc main_arg1)) shapeCasts_S50000x2x2_S50000x4⟩,
          ⟨S50000x2, m ((c : Thread nD τ).loc main_arg2)⟩] concatenates_S50000x4_S50000x2_S50000x6_d1 := by
  dsimp only [Gen.V, Gen.V0]
  simp only [Gen.hostOps0, Gen.hostOps0_1, Gen.hostOps0_2, List.flatten_cons, List.flatten_nil, List.append_nil, List.cons_append, List.nil_append]
  after_results_simp
  rfl

/-- Column `2·o + n` of edge `e` is `W[e, o, n]`. -/
theorem entry_wb_weight (c : Dev nD) (e : Fin 50000) (o n : Fin 2) (k : Fin 6) (hk : k.val = 2 * o.val + n.val) :
    (V m c main_v2 : S50000x6.Idx → Elt F .f32) (ix2 e k)
      = (m ((c : Thread nD τ).loc main_arg1) : S50000x2x2.Idx → Elt F .f32) (ix3 e o n) := by
  rw [entry_wb]
  have hk4 : k.val < 4 := by have := o.isLt; have := n.isLt; omega
  refine (concatenate_pair_apply_left (t := S50000x6) (s₁ := S50000x4) (s₂ := S50000x2) (1 : Fin 2) _ _
    concatenates_S50000x4_S50000x2_S50000x6_d1 (ix2 e k) rfl
    (ix2 e (⟨k.val, hk4⟩ : Fin 4)) (fun b => by match b with | ⟨0, _⟩ => rfl | ⟨1, _⟩ => rfl)).trans ?_
  refine shapeCast_apply _ _ (ix2 e (⟨k.val, hk4⟩ : Fin 4)) (ix3 e o n) ?_
  rw [Shape.rowMajor_val_three, Shape.rowMajor_val_two]
  show (e.val * 2 + o.val) * 2 + n.val = e.val * 4 + k.val
  omega

/-- Column `4 + o` of edge `e` is `b[e, o]`. -/
theorem entry_wb_bias (c : Dev nD) (e : Fin 50000) (o : Fin 2) (k : Fin 6) (hk : k.val = 4 + o.val) :
    (V m c main_v2 : S50000x6.Idx → Elt F .f32) (ix2 e k)
      = (m ((c : Thread nD τ).loc main_arg2) : S50000x2.Idx → Elt F .f32) (ix2 e o) := by
  rw [entry_wb]
  refine concatenate_pair_apply_right (t := S50000x6) (s₁ := S50000x4) (s₂ := S50000x2) (1 : Fin 2) _ _
    concatenates_S50000x4_S50000x2_S50000x6_d1 (ix2 e k) rfl rfl
    (ix2 e o) (fun b hb => by match b with | ⟨0, _⟩ => rfl | ⟨1, _⟩ => exact absurd rfl hb) ?_
  show o.val + 4 = k.val
  omega

/-! ## The mask row -/

/-- The mask row as the host operations before the region compute it: the lane number as a 32-bit word, its remainder by 2
    with the sign of the divisor (the remainder with the dividend's sign, plus the divisor where the two signs differ and
    the remainder is not zero), compared with zero, as a 0/1 word. -/
def maskRow : IVec S1x1024 32 :=
  let lanes : IVec S1x1024 32 := shapeCast S1x1024 (iotaInDim S1024 32 0) shapeCasts_S1024_S1x1024
  let two : IVec S_ 32 := constantI S_ 32 2#32
  let zero : IVec S_ 32 := constantI S_ 32 0#32
  let d : IVec S_ 32 := select (cmpi .eq (id two) zero) (constantI S_ 32 1#32) (id two)
  let rem : IVec S1x1024 32 := Host.remsi lanes (broadcastInDim S1x1024 ![] bcast_S_S1x1024 d)
  let zeros : IVec S1x1024 32 := broadcastInDim S1x1024 ![] bcast_S_S1x1024 zero
  let signsDiffer : IVec S1x1024 1 := cmpi .ne (cmpi .slt rem zeros) (broadcastInDim S1x1024 ![] bcast_S_S1x1024 (cmpi .slt d zero))
  let adjust : IVec S1x1024 1 := andi signsDiffer (cmpi .ne rem zeros)
  let pymod : IVec S1x1024 32 := select adjust (addi rem (broadcastInDim S1x1024 ![] bcast_S_S1x1024 d)) rem
  extui 32 (cmpi .eq pymod zeros) natLt_1_32

set_option maxHeartbeats 4000000 in
/-- The region finds the mask row. -/
theorem entry_mask (c : Dev nD) : (V m c main_v8 : S1x1024.Idx → BitVec 32) = maskRow := by
  dsimp only [Gen.V, Gen.V0]
  simp only [Gen.hostOps0, Gen.hostOps0_1, Gen.hostOps0_2, List.flatten_cons, List.flatten_nil, List.append_nil, List.cons_append, List.nil_append]
  after_results_simp
  rfl

/-- A scalar broadcast to the mask row's shape reads the scalar everywhere. -/
theorem scalar_row_apply {α : Type} (y : S_.Idx → α) (i : S1x1024.Idx) :
    broadcastInDim S1x1024 ![] bcast_S_S1x1024 y i = y ix0 :=
  broadcastInDim_apply _ bcast_S_S1x1024 y i ix0 (fun a => a.elim0)

/-- The lane numbers, reshaped to the mask row's shape, read the lane number at lane `j`. -/
theorem lanes_apply (j : Fin 1024) :
    shapeCast S1x1024 (iotaInDim S1024 32 0) shapeCasts_S1024_S1x1024 (ix2 (0 : Fin 1) j) = BitVec.ofNat 32 j.val := by
  rw [shapeCast_a_1a_apply]
  rfl

/-- Word `j` of the mask row is the parity word of the lane number. -/
theorem maskRow_apply (j : Fin 1024) : maskRow (ix2 (0 : Fin 1) j) = parityWord (BitVec.ofNat 32 j.val) := by
  unfold maskRow parityWord
  simp only [extui, cmpi, select, andi, addi, Host.remsi, lanes_apply, id]
  rw [scalar_row_apply, scalar_row_apply, scalar_row_apply]
  rfl

/-- On an even lane the region finds the mask word 1. -/
theorem entry_mask_even (c : Dev nD) (j : Fin 1024) (h : j.val % 2 = 0) :
    (V m c main_v8 : S1x1024.Idx → BitVec 32) (ix2 (0 : Fin 1) j) = 1#32 := by
  rw [entry_mask, maskRow_apply, parityWord_even j h]

/-- On an odd lane the region finds the mask word 0. -/
theorem entry_mask_odd (c : Dev nD) (j : Fin 1024) (h : j.val % 2 = 1) :
    (V m c main_v8 : S1x1024.Idx → BitVec 32) (ix2 (0 : Fin 1) j) = 0#32 := by
  rw [entry_mask, maskRow_apply, parityWord_odd j h]

end Cert.KernelIdeal.EntryArrays

end
-- ==== Proof.LaneAlgebra.lean ====
/-
  The body's three terms are the per-edge affine map, lane by lane.

  Let `X` be `x` with its trailing axes merged into lanes (`X[e, j] = x[e, j / 2, j % 2]`) and `WB` the six columns
  of an edge's weights and biases (`WB[e, 2·o + n] = W[e, o, n]`, `WB[e, 4 + o] = b[e, o]`). Fix an edge `e` and a lane
  `j`, batch row `p = j / 2`. On an even lane, the lane's own entry `x[e, p, 0]` times column 0 (`W[e, 0, 0]`), plus the
  next lane's entry `x[e, p, 1]` times column 1 (`W[e, 0, 1]`), plus column 4 (`b[e, 0]`), is output unit 0 of the
  affine map. On an odd lane, the lane's own entry `x[e, p, 1]` times column 3 (`W[e, 1, 1]`), plus the previous lane's
  entry `x[e, p, 0]` times column 2 (`W[e, 1, 0]`), plus column 5 (`b[e, 1]`), is output unit 1 with its two products in
  the other order.
  Last, the lane form reshaped back to edges × batch rows × units is the affine map itself: entry `(e, p, o)` and lane
  `2·p + o` of edge `e` are at the same row-major position.
-/
import proofs.«180710_j77627238908438_2_alg».proof.Proof.EdgeLinear
import Idealize.ShloMosaic.Lib.Pipeline.Value

noncomputable section

namespace Cert.EdgeLinear

open Idealize.ShloMosaic Idealize.ShloMosaic.ValueIdx

/-- The six columns' shape: edges × (four weights, two biases). -/
abbrev SC : Shape := ⟨2, ![50000, 6]⟩

/-- The lane form, its lanes split back into batch rows × units, is the per-edge affine map. -/
theorem unmerge_laneForm (x : FVec Ideal SX .f32) (W : FVec Ideal SW .f32) (b : FVec Ideal SB .f32) (h : SL.ShapeCasts SX) :
    shapeCast SX (laneForm x W b) h = edgeLinear x W b := by
  funext i
  obtain ⟨e, p, o, rfl⟩ : ∃ (e : Fin 50000) (p : Fin 512) (o : Fin 2), i = ix3 e p o := ⟨i 0, i 1, i 2, eq_ix3 i⟩
  have hlt : 2 * p.val + o.val < 1024 := by have := p.isLt; have := o.isLt; omega
  refine (shapeCast_apply (laneForm x W b) h (ix3 e p o) (ix2 e (⟨2 * p.val + o.val, hlt⟩ : Fin 1024)) ?_).trans ?_
  · rw [Shape.rowMajor_val_two, Shape.rowMajor_val_three]
    show e.val * 1024 + (2 * p.val + o.val) = (e.val * 512 + p.val) * 2 + o.val
    omega
  · have h1 : laneRow ⟨2 * p.val + o.val, hlt⟩ = p := Fin.ext (by show (2 * p.val + o.val) / 2 = p.val; have := o.isLt; omega)
    have h2 : laneUnit ⟨2 * p.val + o.val, hlt⟩ = o := Fin.ext (by show (2 * p.val + o.val) % 2 = o.val; have := o.isLt; omega)
    show edgeLinear x W b (ix3 e (laneRow ⟨2 * p.val + o.val, hlt⟩) (laneUnit ⟨2 * p.val + o.val, hlt⟩)) = _
    rw [h1, h2]

section Lanes

variable (x : FVec Ideal SX .f32) (W : FVec Ideal SW .f32) (b : FVec Ideal SB .f32)
  (X : FVec Ideal SL .f32) (WB : FVec Ideal SC .f32)
  (hX : ∀ (e : Fin 50000) (j : Fin 1024), X (ix2 e j) = x (ix3 e (laneRow j) (laneUnit j)))
  (hW : ∀ (e : Fin 50000) (o n : Fin 2) (k : Fin 6), k.val = 2 * o.val + n.val → WB (ix2 e k) = W (ix3 e o n))
  (hB : ∀ (e : Fin 50000) (o : Fin 2) (k : Fin 6), k.val = 4 + o.val → WB (ix2 e k) = b (ix2 e o))

include hX hW hB

/-- An even lane: own entry × column 0 + next lane's entry × column 1 + column 4 is output unit 0. -/
theorem lane_even (e : Fin 50000) (j j' : Fin 1024) (h : j.val % 2 = 0) (hj : j'.val = j.val + 1) :
    X (ix2 e j) * WB (ix2 e (0 : Fin 6)) + X (ix2 e j') * WB (ix2 e (1 : Fin 6)) + WB (ix2 e (4 : Fin 6))
      = laneForm x W b (ix2 e j) := by
  have hu : laneUnit j = (0 : Fin 2) := Fin.ext h
  have hu' : laneUnit j' = (1 : Fin 2) := Fin.ext (by show j'.val % 2 = 1; omega)
  have hr' : laneRow j' = laneRow j := Fin.ext (by show j'.val / 2 = j.val / 2; omega)
  rw [hX, hX, hW e (0 : Fin 2) (0 : Fin 2) (0 : Fin 6) rfl, hW e (0 : Fin 2) (1 : Fin 2) (1 : Fin 6) rfl,
    hB e (0 : Fin 2) (4 : Fin 6) rfl, hu, hu', hr']
  show _ = edgeLinear x W b (ix3 e (laneRow j) (laneUnit j))
  rw [hu, edgeLinear_unit0]

/-- An odd lane: own entry × column 3 + previous lane's entry × column 2 + column 5 is output unit 1. -/
theorem lane_odd (e : Fin 50000) (j j' : Fin 1024) (h : j.val % 2 = 1) (hj : j'.val + 1 = j.val) :
    X (ix2 e j) * WB (ix2 e (3 : Fin 6)) + X (ix2 e j') * WB (ix2 e (2 : Fin 6)) + WB (ix2 e (5 : Fin 6))
      = laneForm x W b (ix2 e j) := by
  have hu : laneUnit j = (1 : Fin 2) := Fin.ext h
  have hu' : laneUnit j' = (0 : Fin 2) := Fin.ext (by show j'.val % 2 = 0; omega)
  have hr' : laneRow j' = laneRow j := Fin.ext (by show j'.val / 2 = j.val / 2; omega)
  rw [hX, hX, hW e (1 : Fin 2) (1 : Fin 2) (3 : Fin 6) rfl, hW e (1 : Fin 2) (0 : Fin 2) (2 : Fin 6) rfl,
    hB e (1 : Fin 2) (5 : Fin 6) rfl, hu, hu', hr']
  show _ = edgeLinear x W b (ix3 e (laneRow j) (laneUnit j))
  rw [hu, edgeLinear_unit1]

end Lanes

end Cert.EdgeLinear

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LaneBody.lean ====
/-
  The kernel body at one entry of its block.

  A block is 1000 edges × 1024 lanes of `x` (lane `j` = batch row `j / 2`, unit `j % 2`), the same 1000 edges
  × 6 columns of weights and biases (columns 0–3 the edge's 2 × 2 matrix row by row, columns 4–5 its bias), and one
  row of 1024 mask words shared by all edges. At lane `j` of edge `r` the body multiplies the lane's own entry by one
  column, its neighbour's entry by another, adds the two products and then a bias column. Which neighbour and which columns
  is decided by the lane's mask word: where the word is not zero, the neighbour is lane `j + 1` (the block rotated by
  1023 of 1024 lanes) and the columns are 0, 1, 4; where it is zero, the neighbour is lane `j − 1` (the block rotated
  by one lane) and the columns are 3, 2, 5.
-/
import proofs.«180710_j77627238908438_2_alg».proof.Proof.Gen.KernelIdeal.Skeleton
import proofs.«180710_j77627238908438_2_alg».proof.Proof.LibColumnBroadcast
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.LaneBody

open Cert.KernelIdeal Cert.KernelIdeal.Gen Idealize.ShloMosaic Idealize.ShloMosaic.ValueIdx Cert.LibColumnBroadcast

/-- Column `k` of the weight-and-bias block, cut out and broadcast along the lanes, reads at `(r, j)` the block's entry
    `(r, k)`. -/
theorem column_apply (x1 : Vec Ideal S1000x6 .f32) (o : Nat) (hs : S1000x6.Slices ![0, o] S1000x1)
    (h1 : S1000x6.ShapeCasts S1000x6) (h2 : S1000x1.ShapeCasts S1000x1) (hb : S1000x1.Broadcasts S1000x1024)
    (k : Fin 6) (hk : k.val = o) (r : Fin 1000) (j : Fin 1024) :
    broadcastTo S1000x1024 (shapeCast S1000x1 (extractStridedSlice S1000x1 ![0, o] (shapeCast S1000x6 x1 h1) hs) h2) hb (ix2 r j)
      = x1 (ix2 r k) := by
  rw [broadcastTo_column_apply, shapeCast_self, shapeCast_self]
  exact slice2_axis1_apply o x1 hs r (0 : Fin 1) k (by rw [hk]; rfl)

/-- The lane condition at `(r, j)`: the shared mask row's word of lane `j` compared with zero. -/
theorem laneCond_apply (x2 : Vec Ideal S1x1024 .i32) (h : S1x1024.ShapeCasts S1x1024) (hb : S1x1024.Broadcasts S1000x1024)
    (r : Fin 1000) (j : Fin 1024) :
    cmpi .ne (broadcastTo S1000x1024 (shapeCast S1x1024 (shapeCast S1x1024 x2 h) h) hb) (broadcast S1000x1024 (0#32 : BitVec 32)) (ix2 r j)
      = IntOp.cmpi .ne (x2 (ix2 (0 : Fin 1) j)) 0#32 := by
  show IntOp.cmpi .ne (broadcastTo S1000x1024 (shapeCast S1x1024 (shapeCast S1x1024 x2 h) h) hb (ix2 r j)) 0#32 = _
  rw [broadcastTo_1b_ab_apply, shapeCast_self, shapeCast_self]

/-- The block rotated by 1023 of its 1024 lanes reads, at lane `j`, lane `j + 1`. -/
theorem rotate_next_apply (x0 : Vec Ideal S1000x1024 .f32) (h : S1000x1024.ShapeCasts S1000x1024) (hr : S1000x1024.Rotates 1 none)
    (r : Fin 1000) (j j' : Fin 1024) (hj : j'.val = j.val + 1) :
    dynamicRotate 1 (1023#32 : BitVec 32) none (shapeCast S1000x1024 x0 h) hr (ix2 r j) = x0 (ix2 r j') := by
  rw [shapeCast_self]
  refine dynamicRotate_apply (1 : Fin 2) 1023#32 x0 hr (ix2 r j) (ix2 r j') fun b => ?_
  match b with
  | ⟨0, _⟩ => rfl
  | ⟨1, _⟩ =>
    show j'.val = (j.val + 1024 - (1023#32 : BitVec 32).toNat % 1024) % 1024
    have := j'.isLt
    have e : (1023#32 : BitVec 32).toNat = 1023 := by decide
    rw [e]; omega

/-- The block rotated by one lane reads, at lane `j`, lane `j − 1`. -/
theorem rotate_prev_apply (x0 : Vec Ideal S1000x1024 .f32) (h : S1000x1024.ShapeCasts S1000x1024) (hr : S1000x1024.Rotates 1 none)
    (r : Fin 1000) (j j' : Fin 1024) (hj : j'.val + 1 = j.val) :
    dynamicRotate 1 (1#32 : BitVec 32) none (shapeCast S1000x1024 x0 h) hr (ix2 r j) = x0 (ix2 r j') := by
  rw [shapeCast_self]
  refine dynamicRotate_apply (1 : Fin 2) 1#32 x0 hr (ix2 r j) (ix2 r j') fun b => ?_
  match b with
  | ⟨0, _⟩ => rfl
  | ⟨1, _⟩ =>
    show j'.val = (j.val + 1024 - (1#32 : BitVec 32).toNat % 1024) % 1024
    have := j.isLt
    have e : (1#32 : BitVec 32).toNat = 1 := by decide
    rw [e]; omega

/-- On a lane whose mask word is 1: own entry × column 0 + next lane's entry × column 1 + column 4. -/
theorem payload_of_mask_one (x0 : Vec Ideal S1000x1024 .f32) (x1 : Vec Ideal S1000x6 .f32) (x2 : Vec Ideal S1x1024 .i32)
    (r : Fin 1000) (j j' : Fin 1024) (hm : x2 (ix2 (0 : Fin 1) j) = 1#32) (hj : j'.val = j.val + 1) :
    k0_pay1 (F := Ideal) x0 x1 x2 (ix2 r j)
      = x0 (ix2 r j) * x1 (ix2 r (0 : Fin 6)) + x0 (ix2 r j') * x1 (ix2 r (1 : Fin 6)) + x1 (ix2 r (4 : Fin 6)) := by
  unfold k0_pay1
  simp only [addf_apply, mulf_apply, select_apply, laneCond_apply, hm]
  rw [show IntOp.cmpi .ne (1#32 : BitVec 32) 0#32 = 1#1 by decide]
  simp only [select_one]
  rw [column_apply x1 0 _ _ _ _ (0 : Fin 6) rfl, column_apply x1 1 _ _ _ _ (1 : Fin 6) rfl, column_apply x1 4 _ _ _ _ (4 : Fin 6) rfl,
    rotate_next_apply x0 _ _ r j j' hj, shapeCast_self]

/-- On a lane whose mask word is 0: own entry × column 3 + previous lane's entry × column 2 + column 5. -/
theorem payload_of_mask_zero (x0 : Vec Ideal S1000x1024 .f32) (x1 : Vec Ideal S1000x6 .f32) (x2 : Vec Ideal S1x1024 .i32)
    (r : Fin 1000) (j j' : Fin 1024) (hm : x2 (ix2 (0 : Fin 1) j) = 0#32) (hj : j'.val + 1 = j.val) :
    k0_pay1 (F := Ideal) x0 x1 x2 (ix2 r j)
      = x0 (ix2 r j) * x1 (ix2 r (3 : Fin 6)) + x0 (ix2 r j') * x1 (ix2 r (2 : Fin 6)) + x1 (ix2 r (5 : Fin 6)) := by
  unfold k0_pay1
  simp only [addf_apply, mulf_apply, select_apply, laneCond_apply, hm]
  rw [show IntOp.cmpi .ne (0#32 : BitVec 32) 0#32 = 0#1 by decide]
  simp only [select_zero]
  rw [column_apply x1 3 _ _ _ _ (3 : Fin 6) rfl, column_apply x1 2 _ _ _ _ (2 : Fin 6) rfl, column_apply x1 5 _ _ _ _ (5 : Fin 6) rfl,
    rotate_prev_apply x0 _ _ r j j' hj, shapeCast_self]

end Cert.KernelIdeal.LaneBody

end
-- ==== Proof.LaneValue.lean ====
/-
  What the idealized kernel's result array holds after its run: the per-edge affine map of the arguments.

  The region runs over 50 grid points; point `t` stages rows `1000·t … 1000·t + 999` of the lane array of `x` and of
  the six columns of weights and biases, the whole mask row, and writes back the same rows of the result's lane array.
  At entry `(r, j)` of its block the body's value is the lane algebra's three terms over the arrays the region found
  (`LaneBody`, by the lane's mask word; `EntryArrays` says which lanes have which word), hence entry
  `(1000·t + r, j)` of the lane form of the affine map (`LaneAlgebra`). The 50 blocks cover every row, so the lane array
  ends at the lane form; the one host operation after the region splits the lanes back into batch rows × units, which gives
  the affine map itself.
-/
import proofs.«180710_j77627238908438_2_alg».proof.Proof.Gen.KernelIdeal.Frame
import proofs.«180710_j77627238908438_2_alg».proof.Proof.EntryArrays
import proofs.«180710_j77627238908438_2_alg».proof.Proof.LaneAlgebra
import proofs.«180710_j77627238908438_2_alg».proof.Proof.LaneBody
import Idealize.ShloMosaic.Lib.Pipeline.Value
import Idealize.ShloMosaic.Lib.StableHlo.Run

set_option maxRecDepth 16384

noncomputable section

namespace Cert.KernelIdeal.LaneValue

open Cert.KernelIdeal Cert.KernelIdeal.Gen Idealize.ShloMosaic Idealize.ShloMosaic.TcCoe Idealize.SL.Sem
open Idealize.ShloMosaic.Pipeline (Dat)
open Idealize.ShloMosaic.ValueIdx Cert.EdgeLinear Cert.KernelIdeal.EntryArrays Cert.KernelIdeal.LaneBody

variable (m : (ℓ : Loc nD τ sig) → Buf (Elt Ideal) ℓ) (ρ : Dev nD → PrngReg)

/-- The per-edge affine map of the arguments as launched, lane by lane. -/
abbrev lanesOf (c : Dev nD) : S50000x1024.Idx → Elt Ideal .f32 :=
  laneForm (m ((c : Thread nD τ).loc main_arg0)) (m ((c : Thread nD τ).loc main_arg1)) (m ((c : Thread nD τ).loc main_arg2))

/-! ## Where a point's blocks lie -/

theorem zero_offsets : (![0, 0] : Fin 2 → Nat) = fun _ => 0 := funext fun a => by fin_cases a <;> rfl

/-- The windows' block indices, decided over the 50 points: the three row-blocked windows are at block row `t`, block
    column 0; the mask row is always its one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(r, j)` of point `t`'s block of the lane array of `x` is entry `(1000·t + r, j)` of the array. -/
theorem emb_x (t : Fin cfg0.N) (r : Fin 1000) (j : Fin 1024) (e : Fin 50000) (he : e.val = t.val * 1000 + r.val) :
    ((cfg0.win 0).blk t).view.emb (ix2 r j) = ix2 e j := by
  obtain ⟨e0, e1, -⟩ := block_indices t
  funext a; apply Fin.ext
  match a with
  | ⟨0, _⟩ => show win0_0.index t (0 : Fin 2) * 1000 + 1 * r.val = e.val; omega
  | ⟨1, _⟩ => show win0_0.index t (1 : Fin 2) * 1024 + 1 * j.val = j.val; omega

/-- Entry `(r, k)` of point `t`'s block of the six columns is entry `(1000·t + r, k)` of the array. -/
theorem emb_wb (t : Fin cfg0.N) (r : Fin 1000) (k : Fin 6) (e : Fin 50000) (he : e.val = t.val * 1000 + r.val) :
    ((cfg0.win 1).blk t).view.emb (ix2 r k) = ix2 e k := by
  obtain ⟨-, -, e0, e1, -⟩ := block_indices t
  funext a; apply Fin.ext
  match a with
  | ⟨0, _⟩ => show win0_1.index t (0 : Fin 2) * 1000 + 1 * r.val = e.val; omega
  | ⟨1, _⟩ => show win0_1.index t (1 : Fin 2) * 6 + 1 * k.val = k.val; omega

/-- The mask row's block is the whole row at every point. -/
theorem emb_mask (t : Fin cfg0.N) (j : Fin 1024) :
    ((cfg0.win 2).blk t).view.emb (ix2 (0 : Fin 1) j) = ix2 (0 : Fin 1) j := by
  obtain ⟨-, -, -, -, e0, e1, -⟩ := block_indices t
  funext a; apply Fin.ext
  match a with
  | ⟨0, _⟩ => show win0_2.index t (0 : Fin 2) * 1 + 1 * 0 = 0; omega
  | ⟨1, _⟩ => show win0_2.index t (1 : Fin 2) * 1024 + 1 * j.val = j.val; omega

/-- Entry `y` of point `t`'s block of the result's lane array is entry `(1000·t + y₀, y₁)` of the array. -/
theorem emb_out (t : Fin cfg0.N) (y : ((cfg0.win 3).xblock (grid0.coords t)).Idx) (e : Fin 50000) (j : Fin 1024)
    (he : e.val = t.val * 1000 + (y 0).val) (hj : j.val = (y 1).val) :
    ((cfg0.win 3).blk t).view.emb y = ix2 e j := by
  obtain ⟨-, -, -, -, -, -, e0, e1⟩ := block_indices t
  funext a; apply Fin.ext
  match a with
  | ⟨0, _⟩ => show win0_3.index t (0 : Fin 2) * 1000 + 1 * (y 0).val = e.val; omega
  | ⟨1, _⟩ => show win0_3.index t (1 : Fin 2) * 1024 + 1 * (y 1).val = j.val; omega

/-! ## The staged blocks, read where the arrays are -/

theorem iblk_x (c : Dev nD) (t : Fin cfg0.N) (r : Fin 1000) (j : Fin 1024) (e : Fin 50000) (he : e.val = t.val * 1000 + r.val) :
    iblk m c 0 t (ix2 r j) = (V m c main_v0 : S50000x1024.Idx → Elt Ideal .f32) (ix2 e j) := by
  show (V m c main_v0 : S50000x1024.Idx → Elt Ideal .f32) (((cfg0.win 0).blk t).view.emb (ix2 r j)) = _
  rw [emb_x t r j e he]

theorem iblk_wb (c : Dev nD) (t : Fin cfg0.N) (r : Fin 1000) (k : Fin 6) (e : Fin 50000) (he : e.val = t.val * 1000 + r.val) :
    iblk m c 1 t (ix2 r k) = (V m c main_v2 : S50000x6.Idx → Elt Ideal .f32) (ix2 e k) := by
  show (V m c main_v2 : S50000x6.Idx → Elt Ideal .f32) (((cfg0.win 1).blk t).view.emb (ix2 r k)) = _
  rw [emb_wb t r k e he]

theorem iblk_mask (c : Dev nD) (t : Fin cfg0.N) (j : Fin 1024) :
    iblk m c 2 t (ix2 (0 : Fin 1) j) = (V m c main_v8 : S1x1024.Idx → BitVec 32) (ix2 (0 : Fin 1) j) := by
  show (V m c main_v8 : S1x1024.Idx → BitVec 32) (((cfg0.win 2).blk t).view.emb (ix2 (0 : Fin 1) j)) = _
  rw [emb_mask t j]

/-! ## What a point writes back -/

/-- At every entry of its block, the body's value at point `t` is the lane form of the affine map at the entry's place in
    the array: by the parity of the lane. -/
theorem point_eq (c : Dev nD) (t : Fin cfg0.N) (y : ((cfg0.win 3).xblock (grid0.coords t)).Idx) :
    k0_pay1 (F := Ideal) (iblk m c 0 t) (iblk m c 1 t) (iblk m c 2 t) ((cfg0.win 3).xinj (grid0.coords t) y)
      = lanesOf m c (((cfg0.win 3).blk t).view.emb y) := by
  have hy0 : (y 0).val < 1000 := (y 0).isLt
  have hy1 : (y 1).val < 1024 := (y 1).isLt
  have ht : t.val < 50 := by have h := t.isLt; have hN : cfg0.N = 50 := N_0; omega
  have hxy : (cfg0.win 3).xinj (grid0.coords t) y = ix2 (⟨(y 0).val, hy0⟩ : Fin 1000) (⟨(y 1).val, hy1⟩ : Fin 1024) :=
    funext fun a => Fin.ext (by match a with | ⟨0, _⟩ => rfl | ⟨1, _⟩ => rfl)
  have hey := emb_out t y (⟨t.val * 1000 + (y 0).val, by omega⟩ : Fin 50000) (⟨(y 1).val, hy1⟩ : Fin 1024) rfl rfl
  rw [hxy, hey]
  rcases Nat.mod_two_eq_zero_or_one (y 1).val with h | h
  · have hj1 : (y 1).val + 1 < 1024 := by omega
    refine (payload_of_mask_one (iblk m c 0 t) (iblk m c 1 t) (iblk m c 2 t) ⟨(y 0).val, hy0⟩ ⟨(y 1).val, hy1⟩
      ⟨(y 1).val + 1, hj1⟩ ?_ rfl).trans ?_
    · rw [iblk_mask m c t ⟨(y 1).val, hy1⟩]
      exact entry_mask_even m c ⟨(y 1).val, hy1⟩ h
    · rw [iblk_x m c t ⟨(y 0).val, hy0⟩ ⟨(y 1).val, hy1⟩ ⟨t.val * 1000 + (y 0).val, by omega⟩ rfl,
        iblk_x m c t ⟨(y 0).val, hy0⟩ ⟨(y 1).val + 1, hj1⟩ ⟨t.val * 1000 + (y 0).val, by omega⟩ rfl,
        iblk_wb m c t ⟨(y 0).val, hy0⟩ (0 : Fin 6) ⟨t.val * 1000 + (y 0).val, by omega⟩ rfl,
        iblk_wb m c t ⟨(y 0).val, hy0⟩ (1 : Fin 6) ⟨t.val * 1000 + (y 0).val, by omega⟩ rfl,
        iblk_wb m c t ⟨(y 0).val, hy0⟩ (4 : Fin 6) ⟨t.val * 1000 + (y 0).val, by omega⟩ rfl]
      exact lane_even (m ((c : Thread nD τ).loc main_arg0)) (m ((c : Thread nD τ).loc main_arg1)) (m ((c : Thread nD τ).loc main_arg2))
        (V m c main_v0) (V m c main_v2) (entry_x_apply m c) (entry_wb_weight m c) (entry_wb_bias m c)
        ⟨t.val * 1000 + (y 0).val, by omega⟩ ⟨(y 1).val, hy1⟩ ⟨(y 1).val + 1, hj1⟩ h rfl
  · have hj1 : (y 1).val - 1 < 1024 := by omega
    have hj2 : (y 1).val - 1 + 1 = (y 1).val := by omega
    refine (payload_of_mask_zero (iblk m c 0 t) (iblk m c 1 t) (iblk m c 2 t) ⟨(y 0).val, hy0⟩ ⟨(y 1).val, hy1⟩
      ⟨(y 1).val - 1, hj1⟩ ?_ hj2).trans ?_
    · rw [iblk_mask m c t ⟨(y 1).val, hy1⟩]
      exact entry_mask_odd m c ⟨(y 1).val, hy1⟩ h
    · rw [iblk_x m c t ⟨(y 0).val, hy0⟩ ⟨(y 1).val, hy1⟩ ⟨t.val * 1000 + (y 0).val, by omega⟩ rfl,
        iblk_x m c t ⟨(y 0).val, hy0⟩ ⟨(y 1).val - 1, hj1⟩ ⟨t.val * 1000 + (y 0).val, by omega⟩ rfl,
        iblk_wb m c t ⟨(y 0).val, hy0⟩ (3 : Fin 6) ⟨t.val * 1000 + (y 0).val, by omega⟩ rfl,
        iblk_wb m c t ⟨(y 0).val, hy0⟩ (2 : Fin 6) ⟨t.val * 1000 + (y 0).val, by omega⟩ rfl,
        iblk_wb m c t ⟨(y 0).val, hy0⟩ (5 : Fin 6) ⟨t.val * 1000 + (y 0).val, by omega⟩ rfl]
      exact lane_odd (m ((c : Thread nD τ).loc main_arg0)) (m ((c : Thread nD τ).loc main_arg1)) (m ((c : Thread nD τ).loc main_arg2))
        (V m c main_v0) (V m c main_v2) (entry_x_apply m c) (entry_wb_weight m c) (entry_wb_bias m c)
        ⟨t.val * 1000 + (y 0).val, by omega⟩ ⟨(y 1).val, hy1⟩ ⟨(y 1).val - 1, hj1⟩ h hj2

/-- What point `t` writes back is block `t` of the lane form of the affine map. -/
theorem flushed_eq (c : Dev nD) (t : Fin cfg0.N) :
    (dats m 0 c).flushed 3 t = ((cfg0.win 3).blk t).view.read (Elt Ideal) (lanesOf m c) := by
  show (cfg0.win 3).cut (grid0.coords t) ((dats m 0 c).after 3 t) = _
  rw [after0_3]
  unfold out0_3
  rw [View.canon_unit_zero zero_offsets]
  simp only [View.ld_unit_zero (S := S1000x1024) zero_offsets, View.ld_unit_zero (S := S1000x6) zero_offsets,
    View.ld_unit_zero (S := S1x1024) zero_offsets]
  funext y
  exact point_eq m c t y

/-! ## The blocks cover the array -/

/-- An index of the result's lane array is in point `t`'s block iff each coordinate is in the block's range. -/
theorem mem_block (t : Fin cfg0.N) (i : S50000x1024.Idx) :
    i ∈ ((cfg0.win 3).blk t).view.set
      ↔ ∀ a : Fin 2, win0_3.index t a * S1000x1024.size a ≤ (i a).val ∧ (i a).val < win0_3.index t a * S1000x1024.size a + S1000x1024.size a := by
  show i ∈ ((View.whole main_v9).slice (win0_3.rect t)).set ↔ _
  rw [View.set_slice_whole, Rect.mem_set_unit]
  exact Iff.rfl

/-- Row `e` of the lane array is in the block of point `e / 1000`. -/
theorem covered (i : S50000x1024.Idx) :
    ∃ t : Fin cfg0.N, (cfg0.win 3).flush t = true ∧ i ∈ ((cfg0.win 3).blk t).view.set := by
  have hi0 : (i 0).val < 50000 := (i 0).isLt
  have hi1 : (i 1).val < 1024 := (i 1).isLt
  have hN : cfg0.N = 50 := N_0
  refine ⟨⟨(i 0).val / 1000, by rw [hN]; omega⟩, flush0_3 _, ?_⟩
  rw [mem_block]
  obtain ⟨-, -, -, -, -, -, e0, e1⟩ := block_indices ⟨(i 0).val / 1000, by rw [hN]; omega⟩
  intro a
  match a with
  | ⟨0, _⟩ =>
    show win0_3.index _ (0 : Fin 2) * 1000 ≤ (i 0).val ∧ (i 0).val < win0_3.index _ (0 : Fin 2) * 1000 + 1000
    rw [e0]; show (i 0).val / 1000 * 1000 ≤ (i 0).val ∧ (i 0).val < (i 0).val / 1000 * 1000 + 1000; omega
  | ⟨1, _⟩ =>
    show win0_3.index _ (1 : Fin 2) * 1024 ≤ (i 1).val ∧ (i 1).val < win0_3.index _ (1 : Fin 2) * 1024 + 1024
    rw [e1]; omega

/-- The result's lane array after the region: the lane form of the affine map. -/
theorem final (c : Dev nD) : (dats m 0 c).arrAt 3 cfg0.N = lanesOf m c :=
  (dats m 0 c).arrAt_eq_of_cover 3 (lanesOf m c) (fun t _ => flushed_eq m c t) covered

/-! ## The host operation after the region, and the run -/

/-- The program's result: the lane array split back into batch rows × units, which is the affine map. -/
theorem result_eq (c : Dev nD) :
    (Pipeline.afterTail₀ cfgs (dats m) 0 (V0 m) [hostOps1] c main_v10 : S50000x512x2.Idx → Elt Ideal .f32)
      = edgeLinear (m ((c : Thread nD τ).loc main_arg0)) (m ((c : Thread nD τ).loc main_arg1)) (m ((c : Thread nD τ).loc main_arg2)) := by
  unfold Pipeline.afterTail₀
  show StableHlo.after hostOps1 _ (Proc.devRef .tc main_v10) = _
  after_results
  rw [(Pipeline.withArrays_arr spec0 launch0.win.arr_inj c _ _ 3).trans (final m c)]
  exact unmerge_laneForm _ _ _ shapeCasts_S50000x1024_S50000x512x2

/-- Every weakly fair execution of the idealized kernel terminates with its result at the per-edge affine map of the
    arguments, and the arguments unchanged. -/
theorem run : θ_run defs (onTc (τ := τ) (main (F := Ideal))) ⟨m, fun _ => 0, ρ⟩ fun r => ∀ c : Dev nD,
      r.2.mem ((c : Thread nD τ).loc main_v10)
        = edgeLinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.LaneValue

end
-- ==== Proof.lean ====
/-
  A per-edge 2 × 2 linear layer, computed on merged lanes, against the batched contraction that defines it.

  The reference is `out[e, p, o] = (∑ k, x[e, p, k] · W[e, o, k]) + b[e, o]` for 50000 edges, 512 batch rows and two
  units (`EdgeLinear.edgeLinear`). The kernel never forms the contraction. It views each edge's 512 × 2 entries as 1024
  lanes (lane `j` = row `j / 2`, unit `j % 2`), lays the edge's matrix and bias out as six columns, and at every lane adds
  the lane's own entry times one column, its pair partner's entry (the next lane on an even lane, the previous lane on an
  odd one, obtained by rotating the lanes) times another column, and a bias column; a precomputed row of lane-parity words
  selects between the two cases. On an even lane that is `x[e,p,0]·W[e,0,0] + x[e,p,1]·W[e,0,1] + b[e,0]`, the contraction
  for unit 0 written out; on an odd lane it is `x[e,p,1]·W[e,1,1] + x[e,p,0]·W[e,1,0] + b[e,1]`, the contraction for unit 1
  with its two products in the other order. Over the extended reals the two programs therefore agree entry by entry by
  commutativity of addition alone; no entry needs to be finite, and the precondition is not opened.

  The modules: `EdgeLinear` (the map, its lane form, each unit written out), `LaneAlgebra` (the three terms are the lane
  form; the lane form reshaped is the map), `ReferenceValue` (the reference's result is the map), `LaneParity` (the
  parity word of a lane number), `EntryArrays` (the arrays the region finds, as functions of the arguments), `LaneBody`
  (the body at one entry of its block), `LaneValue` (block by block to the whole array, the reshape after the region, the
  run). The idealized kernel is the kernel's own text read over the extended reals, no operation replaced, so `preserves`
  has no conjunct.
-/
import proofs.«180710_j77627238908438_2_alg».proof.Defs
import proofs.«180710_j77627238908438_2_alg».proof.Proof.Gen.Kernel
import proofs.«180710_j77627238908438_2_alg».proof.Proof.Gen.Kernel.Frame
import proofs.«180710_j77627238908438_2_alg».proof.Proof.Gen.KernelIdeal
import proofs.«180710_j77627238908438_2_alg».proof.Proof.Gen.KernelIdeal.Frame
import proofs.«180710_j77627238908438_2_alg».proof.Proof.Gen.ReferenceIdeal
import proofs.«180710_j77627238908438_2_alg».proof.Proof.Gen.ReferenceIdeal.Run
import proofs.«180710_j77627238908438_2_alg».proof.Proof.Gen.ReferenceIdeal.Read
import proofs.«180710_j77627238908438_2_alg».proof.Proof.Gen.Pre_finite_inputs
import proofs.«180710_j77627238908438_2_alg».proof.Proof.ReferenceValue
import proofs.«180710_j77627238908438_2_alg».proof.Proof.LaneValue
import Idealize.ShloMosaic.Adequacy
import Idealize.ShloMosaic.Init

noncomputable section

namespace Cert.Proof

open Idealize.ShloMosaic Idealize.ShloMosaic.TcCoe Idealize.SL.Sem Cert.EdgeLinear

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is four host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `W` and `b`, both programs end with the per-edge affine map of those arguments: the
    kernel by `LaneValue.run`, the reference by its run read as `edgeLinear`. -/
theorem algebraic : Cert.algebraic_KernelIdeal_ReferenceIdeal := by
  intro m ρ m' ρ' _ hagree
  refine ⟨fun c => edgeLinear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.LaneValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
